-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S64x32 .f32) (main_arg9 : FVec F S32 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64x32 .f32) (main_arg9 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x64 .f32) (main_arg7 : FVec F S64 .f32) (main_arg8 : FVec F S64x32 .f32) (main_arg9 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S10000 : Shape := ⟨1, ![10000]⟩
abbrev S10000x1 : Shape := ⟨2, ![10000, 1]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S1x32 : Shape := ⟨2, ![1, 32]⟩
abbrev S100000x32 : Shape := ⟨2, ![100000, 32]⟩
abbrev S10000x32 : Shape := ⟨2, ![10000, 32]⟩

abbrev nBuf : Space → Nat
  | .hbm => 102
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S100000, .f32⟩
  | .hbm, ⟨19, _⟩ => ⟨S_, .i32⟩
  | .hbm, ⟨20, _⟩ => ⟨S1700000, .i32⟩
  | .hbm, ⟨21, _⟩ => ⟨S1700000, .i1⟩
  | .hbm, ⟨22, _⟩ => ⟨S_, .i32⟩
  | .hbm, ⟨23, _⟩ => ⟨S1700000, .i32⟩
  | .hbm, ⟨24, _⟩ => ⟨S1700000, .i32⟩
  | .hbm, ⟨25, _⟩ => ⟨S1700000, .i32⟩
  | .hbm, ⟨26, _⟩ => ⟨S1700000x1, .i32⟩
  | .hbm, ⟨27, _⟩ => ⟨S_, .f32⟩
  | .hbm, ⟨28, _⟩ => ⟨S1700000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000, .f32⟩
  | .hbm, ⟨56, _⟩ => ⟨S1700000, .f32⟩
  | .hbm, ⟨57, _⟩ => ⟨S100000x128, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x128, .f32⟩
  | .hbm, ⟨67, _⟩ => ⟨S1700000x1, .f32⟩
  | .hbm, ⟨68, _⟩ => ⟨S1700000x128, .f32⟩
  | .hbm, ⟨69, _⟩ => ⟨S1700000x128, .f32⟩
  | .hbm, ⟨70, _⟩ => ⟨S_, .f32⟩
  | .hbm, ⟨71, _⟩ => ⟨S100000x128, .f32⟩
  | .hbm, ⟨72, _⟩ => ⟨S1700000x1, .i32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S1x128, .f32⟩
  | .hbm, ⟨79, _⟩ => ⟨S100000x128, .f32⟩
  | .hbm, ⟨80, _⟩ => ⟨S100000x64, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x64, .f32⟩
  | .hbm, ⟨90, _⟩ => ⟨S1700000x1, .f32⟩
  | .hbm, ⟨91, _⟩ => ⟨S1700000x64, .f32⟩
  | .hbm, ⟨92, _⟩ => ⟨S1700000x64, .f32⟩
  | .hbm, ⟨93, _⟩ => ⟨S_, .f32⟩
  | .hbm, ⟨94, _⟩ => ⟨S100000x64, .f32⟩
  | .hbm, ⟨95, _⟩ => ⟨S1700000x1, .i32⟩
  | .hbm, ⟨96, _⟩ => ⟨S100000x64, .f32⟩
  | .hbm, ⟨97, _⟩ => ⟨S1x64, .f32⟩
  | .hbm, ⟨98, _⟩ => ⟨S100000x64, .f32⟩
  | .hbm, ⟨99, _⟩ => ⟨S100000x64, .f32⟩
  | .hbm, ⟨100, _⟩ => ⟨S1x32, .f32⟩
  | .hbm, ⟨101, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x32, .f32⟩
  | .local _ .vmem, ⟨19, _⟩ => ⟨S1x32, .f32⟩
  | .local _ .vmem, ⟨20, _⟩ => ⟨S10000x32, .f32⟩
  | .local _ .vmem, ⟨21, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S128_S1x128 : S128.ShapeCasts S1x128
  shapeCasts_S10000x128_S10000x128 : S10000x128.ShapeCasts S10000x128
  reduces_S10000x128_S10000 : S10000x128.Reduces [1] S10000
  shapeCasts_S10000_S10000x1 : S10000.ShapeCasts S10000x1
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S32_S1x32 : S32.ShapeCasts S1x32
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x32.size a ≤ S100000x32.size a
  hwx3_3 : ∀ i : grid3.Coords, EltTy.bits .f32 = 32 ∨ (Rect.block (s := S100000x32) S10000x32.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S10000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1x32 : Shape := ⟨2, ![1, 32]⟩

abbrev nBuf : Space → Nat
  | .hbm => 133
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x64, .f32⟩
  | 7 => ⟨S64, .f32⟩
  | 8 => ⟨S64x32, .f32⟩
  | 9 => ⟨S32, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S100000, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S_, .f32⟩
  | 28 => ⟨S1700000, .f32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S100000x128, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x128, .f32⟩
  | 67 => ⟨S1700000x1, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000, .f32⟩
  | 79 => ⟨S100000x1, .f32⟩
  | 80 => ⟨S_, .f32⟩
  | 81 => ⟨S100000x1, .f32⟩
  | 82 => ⟨S100000x1, .f32⟩
  | 83 => ⟨S100000x128, .f32⟩
  | 84 => ⟨S100000x128, .f32⟩
  | 85 => ⟨S100000x128, .f32⟩
  | 86 => ⟨S_, .f32⟩
  | 87 => ⟨S100000, .f32⟩
  | 88 => ⟨S100000x1, .f32⟩
  | 89 => ⟨S_, .f32⟩
  | 90 => ⟨S100000x1, .f32⟩
  | 91 => ⟨S100000x1, .f32⟩
  | 92 => ⟨S100000x128, .f32⟩
  | 93 => ⟨S100000x128, .f32⟩
  | 94 => ⟨S_, .f32⟩
  | 95 => ⟨S100000x1, .f32⟩
  | 96 => ⟨S100000x1, .f32⟩
  | 97 => ⟨S100000x1, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S100000x64, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x1, .f32⟩
  | 120 => ⟨S1700000x64, .f32⟩
  | 121 => ⟨S1700000x64, .f32⟩
  | 122 => ⟨S_, .f32⟩
  | 123 => ⟨S100000x64, .f32⟩
  | 124 => ⟨S1700000x1, .i32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | 1 => ⟨S100000x32, .f32⟩
  | 2 => ⟨S1x32, .f32⟩
  | 3 => ⟨S100000x32, .f32⟩
  | 4 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_cst_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_15 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_call1_cst : Ref sig .tc := ⟨.hbm, 106, rfl⟩
abbrev main_call1_v0 : Ref sig .tc := ⟨.hbm, 107, rfl⟩
abbrev main_v76 : Ref sig .tc := ⟨.hbm, 108, rfl⟩
abbrev main_v77 : Ref sig .tc := ⟨.hbm, 109, rfl⟩
abbrev main_c_16 : Ref sig .tc := ⟨.hbm, 110, rfl⟩
abbrev main_v78 : Ref sig .tc := ⟨.hbm, 111, rfl⟩
abbrev main_v79 : Ref sig .tc := ⟨.hbm, 112, rfl⟩
abbrev main_c_17 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_18 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The idealized kernel's run with its result named.  Every weakly fair execution of @main terminates without a
  fault, the argument arrays end as launched, and the result array `main_v73` ends at the contents the last
  segment boundary gives it: the fold of @main's five stretches of host operations and its four pallas_call
  regions over the launch memory (`Gen.W9`).  The other modules read that fold back to one function of the
  argument arrays.
-/
import proofs.«109005_j30331059044677_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame run of @main with the result array read off the last thread state: the launch over @main's nine
    segments, every unscoped buffer ending at the last boundary's contents. -/
theorem run_result : θ_run defs (onTc (τ := τ) (main (F := F))) ⟨m, fun _ => 0, ρ⟩ (fun r => ∀ c : Dev nD,
      r.2.mem ((c.tc : Thread nD τ).loc main_v73) = W9 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v73 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.Result

end
-- ==== Proof.Region0.lean ====
/-
  Region 0 of @main: the row-tiled matrix product.  Grid point t takes rows [10000·t, 10000·t + 10000) of the left
  operand and the whole right operand, and writes back the product of that block of rows: entry (r, c) of the block
  is the sum over k of left(10000·t + r, k) · right(k, c) — at the ideal values the rounding of both operands to
  bf16 on the way into the product is the identity and the accumulator starts at zero.  That is entry
  (10000·t + r, c) of the whole product, the host's `dot_general` of the two arrays.  The ten blocks tile the
  output array, so after the region the array is the whole product.
-/
import proofs.«109005_j30331059044677_1_alg».proof.Proof.Gen.KernelIdeal.Frame
import proofs.«109005_j30331059044677_1_alg».proof.Proof.RefRead
import Idealize.ShloMosaic.Lib.ValueIdx
import Idealize.ShloMosaic.Lib.Pipeline.Value
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat)
open Cert.ReferenceIdeal.ReadP (val_main_v35 val_main_v35_apply lidx_main_v35 ridx_main_v35)

theorem hz : (![0, 0] : Fin 2 → Nat) = fun _ => 0 := funext fun a => by fin_cases a <;> rfl

/-- Left factor's index at output entry `j` and contraction position `k`: (row of j, k). -/
abbrev li (j : S10000x128.Idx) (k : Fin 128) : S10000x128.Idx := fun a => match a with
  | ⟨0, _⟩ => ⟨(j 0).val, (j 0).isLt⟩
  | ⟨1, _⟩ => ⟨k.val, k.isLt⟩
/-- Right factor's index: (k, column of j). -/
abbrev ri (j : S10000x128.Idx) (k : Fin 128) : S128x128.Idx := fun a => match a with
  | ⟨0, _⟩ => ⟨k.val, k.isLt⟩
  | ⟨1, _⟩ => ⟨(j 1).val, (j 1).isLt⟩

theorem lhs0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem rhs0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhs1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block product at an entry: the plain sum over the contracted axis. -/
theorem prod_apply (x : Vec Ideal S10000x128 .f32) (w : Vec Ideal S128x128 .f32) (j : S10000x128.Idx) :
    (matmul (F := Ideal) dot_S10000x128_S128x128_S10000x128_1_0_0_1_n_n none (truncf .bf16 x bitsLt_bf16_f32) (truncf .bf16 w bitsLt_bf16_f32) (constant S10000x128 .f32 0x00000000#32)) j
      = ∑ k : Fin 128, x (li j k) * w (ri j k) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = li j k := funext fun a => Fin.ext (by
    match a with
    | ⟨0, _⟩ => exact lhs0 _ _
    | ⟨1, _⟩ => exact (lhs1 _ _).trans hk)
  have er : dot_S10000x128_S128x128_S10000x128_1_0_0_1_n_n.rhsIdx j ((ValueIdx.contrEquiv1 dot_S10000x128_S128x128_S10000x128_1_0_0_1_n_n 128 rfl rfl).symm k) = ri j k := funext fun a => Fin.ext (by
    match a with
    | ⟨0, _⟩ => exact (rhs0 _ _).trans hk
    | ⟨1, _⟩ => exact rhs1 _ _)
  rw [el, er]
  rfl

variable (V : (c : Dev nD) → (b : Ref sig .tc) → Buf (Elt Ideal) ((c : Thread nD τ).loc b))

/-- The index maps over the grid: the left operand's and the output's row blocks move together with the grid point,
    every other block index is zero, and there are ten row blocks. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks is some grid point's. -/
theorem idx_onto : ∀ q : Fin 10, ∃ t : Fin cfg0.N, win0_2.index t = ![q.val, 0] :=
  (by decide +kernel : ∀ q : Fin 10, ∃ t : Fin grid0.N, win0_2.index t = ![q.val, 0])

/-- The payload at an entry of the block. -/
theorem pay_apply (x : Vec Ideal S10000x128 .f32) (w : Vec Ideal S128x128 .f32) (j : S10000x128.Idx) :
    k0_pay1 x w j = ∑ k : Fin 128, x (li j k) * w (ri j k) := by
  exact prod_apply x w j

/-- What grid point `t` writes back is block `t` of the host's whole product of the arrays the region finds. -/
theorem flushed_eq (c : Dev nD) (t : Fin cfg0.N) (x0 : (⟨S100000x128, .f32⟩ : BufTy).Contents (Elt Ideal)) (x2 : (⟨S128x128, .f32⟩ : BufTy).Contents (Elt Ideal))
    (hl : V c main_arg0 = x0) (hr : V c main_arg2 = x2) :
    (dat0 V c).flushed 2 t = ((cfg0.win 2).blk t).view.read (Elt Ideal) (val_main_v35 (F := Ideal) x0 x2) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  funext j
  have hj0 : (j 0).val < 10000 := (j 0).isLt
  have hj1 : (j 1).val < 128 := (j 1).isLt
  show k0_pay1 (iblk0 V c 0 t) (iblk0 V c 1 t) j = (val_main_v35 (F := Ideal) x0 x2) (((cfg0.win 2).blk t).view.emb j)
  rw [pay_apply (iblk0 V c 0 t) (iblk0 V c 1 t) j]
  rw [val_main_v35_apply]
  refine Finset.sum_congr rfl fun k _ => ?_
  have hk : k.val < 128 := k.isLt
  have a1 : iblk0 V c 0 t (li j k) = (x0) (lidx_main_v35 (((cfg0.win 2).blk t).view.emb j) k) := by
    show V c main_arg0 (((cfg0.win 0).blk t).view.emb (li j k)) = _
    rw [hl]; refine congrArg (x0) ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have a2 : iblk0 V c 1 t (ri j k) = (x2) (ridx_main_v35 (((cfg0.win 2).blk t).view.emb j) k) := by
    show V c main_arg2 (((cfg0.win 1).blk t).view.emb (ri j k)) = _
    rw [hr]; refine congrArg (x2) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (fun a b : EReal => a * b) a1 a2

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v35).slice (win0_2.rect t)).set ↔ _
  rw [View.set_slice_whole, Rect.mem_set_unit]
  exact Iff.rfl

/-- The ten row blocks cover the output array: row `r` lies in block `r / 10000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region: the host's whole product of the arrays the region finds. -/
theorem final (c : Dev nD) (x0 : (⟨S100000x128, .f32⟩ : BufTy).Contents (Elt Ideal)) (x2 : (⟨S128x128, .f32⟩ : BufTy).Contents (Elt Ideal))
    (hl : V c main_arg0 = x0) (hr : V c main_arg2 = x2) :
    (dat0 V c).arrAt 2 cfg0.N = val_main_v35 (F := Ideal) x0 x2 :=
  (dat0 V c).arrAt_eq_of_cover 2 (val_main_v35 (F := Ideal) x0 x2) (fun t _ => flushed_eq V c t x0 x2 hl hr) (cover)

end Cert.KernelIdeal.Region0

end
-- ==== Proof.RowNorm.lean ====
/-
  LayerNorm of one row of 128 extended reals followed by the clamp at zero, as one function of the row.  For a row x:
  μ = (Σ_k x_k) / 128,  d_k = x_k − μ,  v = (Σ_k d_k · d_k) / 128,  and the value at column c is
  max(((d_c · rsqrt(v + ε)) · g) + b, 0), with 128, ε and 0 the float literals both programs print.
  Both the kernel's body and the host's chain of whole-array operations are this function, row by row.
-/
import Idealize.ShloMosaic.PureOps.Ideal

noncomputable section

namespace Cert.RowNorm

open Idealize.ShloMosaic

/-- The mean of a row: its sum divided by the literal 128. -/
def rowMean (row : Fin 128 → EReal) : EReal := Ideal.div (∑ k : Fin 128, row k) (Ideal.ofBits .f32 0x43000000#32)

/-- The (biased) variance of a row: the mean of the squared deviations from the row's mean. -/
def rowVar (row : Fin 128 → EReal) : EReal :=
  Ideal.div (∑ k : Fin 128, (row k - rowMean row) * (row k - rowMean row)) (Ideal.ofBits .f32 0x43000000#32)

/-- LayerNorm of a row at column `c`, scaled by `g`, shifted by `b`, clamped at zero: the operations in the order
    both programs apply them. -/
def lnrelu (row : Fin 128 → EReal) (g b : EReal) (c : Fin 128) : EReal :=
  max ((((row c - rowMean row) * Ideal.rsqrt (rowVar row + Ideal.ofBits .f32 0x3727C5AC#32)) * g) + b)
    (Ideal.ofBits .f32 0x00000000#32)

/-- Entry (row of i, k) of a [100000, 128] array. -/
abbrev rc (i : (⟨2, ![100000, 128]⟩ : Shape).Idx) (k : Fin 128) : (⟨2, ![100000, 128]⟩ : Shape).Idx := fun a => match a with
  | ⟨0, _⟩ => ⟨(i 0).val, (i 0).isLt⟩
  | ⟨1, _⟩ => ⟨k.val, k.isLt⟩
/-- The entry of a [1, 128] row at the column of `i`. -/
abbrev gj (i : (⟨2, ![100000, 128]⟩ : Shape).Idx) : (⟨2, ![1, 128]⟩ : Shape).Idx := fun a => match a with
  | ⟨0, _⟩ => ⟨0, Nat.one_pos⟩
  | ⟨1, _⟩ => ⟨(i 1).val, (i 1).isLt⟩
/-- The entry of a [128] vector at the column of `i`. -/
abbrev ci (i : (⟨2, ![100000, 128]⟩ : Shape).Idx) : (⟨1, ![128]⟩ : Shape).Idx := fun a => match a with
  | ⟨0, _⟩ => ⟨(i 1).val, (i 1).isLt⟩

theorem lnrelu_congr {r r' : Fin 128 → EReal} {g g' b b' : EReal} {c c' : Fin 128}
    (hr : ∀ k, r k = r' k) (hg : g = g') (hb : b = b') (hc : c = c') : lnrelu r g b c = lnrelu r' g' b' c' := by
  have : r = r' := funext hr
  subst this hg hb hc
  rfl

end Cert.RowNorm

end
-- ==== Proof.LibKeepdims.lean ====
/-
  Column ("keepdims") layouts read at an index given by coordinates.

  A row statistic of a matrix (a row sum, a row maximum) is a vector `[a]`; to combine it with the matrix again it is
  first viewed as the one-column matrix `[a, 1]` and then repeated along the columns to `[a, b]`. A statistic of the
  whole matrix is a one-element vector `[1]`, viewed as `[1, 1]` and repeated down the rows to the column `[a, 1]`.
  And a matrix that is one block of a rank-4 array is the block `[1, 1, a, b]` with its two unit axes dropped, or
  the matrix with two unit axes put in front. Each lemma here says which ONE element of the operand such a view reads
  at an index written by coordinates: a shape cast keeps the row-major position, and a broadcast reads coordinate `0`
  on an axis of size one. They complement the leading-unit-axis casts and the row broadcast `[1, b] → [a, b]` of the
  library's layout lemmas; all are general in the sizes.
-/
import Idealize.ShloMosaic.Lib.ValueLayout

namespace Cert.Keepdims

open Idealize.ShloMosaic Idealize.ShloMosaic.ValueIdx

variable {α : Type}

/-! ## A vector as a one-column matrix, and the column repeated -/

/-- An `[a]` vector cast to the column `[a, 1]` reads, at `(i, u)`, the vector at `i`: the position `i · 1 + u` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One number as a `[1, 1]` matrix, repeated down a column -/

/-- A one-element vector `[1]` cast to `[1, 1]` reads its one element everywhere. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  obtain rfl : u = 0 := Subsingleton.elim _ _
  exact shapeCast_a_a1_apply x h 0 v

/-- A `[1, 1]` matrix broadcast to the column `[a, 1]` reads its one element in every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  obtain rfl : u = 0 := Subsingleton.elim _ _
  exact broadcastTo_1b_ab_apply v h p 0

/-! ## Two leading unit axes dropped from, or added to, a matrix -/

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A matrix `[a, b]` cast to the block `[1, 1, a, b]` reads, at `(u, v, i, j)`, the matrix at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Cert.Keepdims
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.Region1.lean ====
/-
  Region 1 of @main: LayerNorm over the feature axis followed by the clamp at zero, row-tiled.  Grid point t takes
  rows [10000·t, 10000·t + 10000) of the input and the whole scale and shift rows, and writes back, at entry (r, c) of
  its block, `lnrelu` of row r at column c (the row's mean and variance by lane sums started at zero, the division
  by the literal 128, rsqrt, the two broadcasts of the [1, 128] rows).  The ten blocks tile the output array, so after
  the region the array holds `lnrelu` of each row of the input array.
-/
import proofs.«109005_j30331059044677_1_alg».proof.Proof.Gen.KernelIdeal.Frame
import proofs.«109005_j30331059044677_1_alg».proof.Proof.RowNorm
import proofs.«109005_j30331059044677_1_alg».proof.Proof.LibKeepdims
import proofs.«109005_j30331059044677_1_alg».proof.Proof.LibBroadcastTo
import Idealize.ShloMosaic.Lib.ValueIdx
import Idealize.ShloMosaic.Lib.Pipeline.Value
import Idealize.ShloMosaic.PureOps.Ideal.Laws

set_option maxRecDepth 16384

noncomputable section

namespace Cert.KernelIdeal.Region1

open Cert.KernelIdeal Cert.KernelIdeal.Gen Cert.RowNorm
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- A lane sum of a [10000, 128] block at row `p`: the sum of the row. -/
theorem laneSum (y : Vec Ideal S10000x128 .f32) (p : Fin 10000) :
    multiReduction (F := Ideal) .add [1] S10000 y 0x00000000#32 reduces_S10000x128_S10000 (.inl rfl) rfl (ix1 p)
      = ∑ k : Fin 128, y (ix2 p k) := by
  refine (Ideal.multiReduction_add_single y 0x00000000#32 reduces_S10000x128_S10000 (.inl rfl) rfl (ix1 p)).trans ?_
  refine Finset.sum_congr rfl fun k _ => congrArg y ?_
  funext a; apply Fin.ext
  match a with
  | ⟨0, _⟩ => rfl
  | ⟨1, _⟩ => rfl

/-- The body's payload at entry (p, q) of the block: `lnrelu` of row `p`. -/
theorem pay_ln (x : Vec Ideal S10000x128 .f32) (g b : Vec Ideal S1x128 .f32) (p : Fin 10000) (q : Fin 128) :
    k1_pay1 x g b (ix2 p q) = lnrelu (fun k => x (ix2 p k)) (g (ix2 0 q)) (b (ix2 0 q)) q := by
  unfold k1_pay1
  simp only [shapeCast_self]
  simp only [maximumf, addf, mulf, subf, divf, rsqrt, broadcast,
    Cert.Keepdims.broadcastTo_a1_ab_apply, Cert.BroadcastTo.row_apply, Cert.Keepdims.shapeCast_a_a1_apply]
  rw [laneSum x p]
  rw [laneSum _ p]
  simp only [mulf, subf, divf, broadcast, Cert.Keepdims.broadcastTo_a1_ab_apply, Cert.Keepdims.shapeCast_a_a1_apply]
  rw [laneSum x p]
  rfl

variable (V : (c : Dev nD) → (b : Ref sig .tc) → Buf (Elt Ideal) ((c : Thread nD τ).loc b))

/-- The index maps over the grid: the input's and the output's row blocks move together with the grid point, every
    other block index is zero, and there are ten row blocks. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

theorem idx_onto : ∀ q : Fin 10, ∃ t : Fin cfg1.N, win1_3.index t = ![q.val, 0] :=
  (by decide +kernel : ∀ q : Fin 10, ∃ t : Fin grid1.N, win1_3.index t = ![q.val, 0])

/-- What grid point `t` writes back is block `t` of any whole array `G` whose entry (r, c) is `lnrelu` of row r of
    `XA` at column c with the scale and shift rows `XG`, `XB`, for the arrays the region finds. -/
theorem flushed_eq (c : Dev nD) (t : Fin cfg1.N) (XA : (⟨S100000x128, .f32⟩ : BufTy).Contents (Elt Ideal)) (XG XB : (⟨S1x128, .f32⟩ : BufTy).Contents (Elt Ideal)) (G : (⟨S100000x128, .f32⟩ : BufTy).Contents (Elt Ideal))
    (ha : V c main_v51 = XA) (hg : V c main_v52 = XG) (hb : V c main_v53 = XB)
    (hG : ∀ i : S100000x128.Idx, G i = lnrelu (fun k => XA (rc i k)) (XG (gj i)) (XB (gj i)) ⟨(i 1).val, (i 1).isLt⟩) :
    (dat1 V c).flushed 3 t = ((cfg1.win 3).blk t).view.read (Elt Ideal) G := by
  show (cfg1.win 3).cut (grid1.coords t) ((dat1 V c).after 3 t) = _
  rw [after1_3]
  unfold out1_3
  rw [View.canon_unit_zero hz]
  simp only [View.ld_unit_zero (S := S10000x128) hz, View.ld_unit_zero (S := S1x128) hz]
  obtain ⟨e0, e1, e2, e3, e4, e5, e6, e7⟩ := idx_facts t
  funext j
  obtain ⟨p, q, rfl⟩ : ∃ (p : Fin 10000) (q : Fin 128), j = ix2 p q := ⟨j 0, j 1, eq_ix2 j⟩
  have hp : p.val < 10000 := p.isLt
  have hq : q.val < 128 := q.isLt
  show k1_pay1 (iblk1 V c 0 t) (iblk1 V c 1 t) (iblk1 V c 2 t) (ix2 p q) = G (((cfg1.win 3).blk t).view.emb (ix2 p q))
  rw [pay_ln (iblk1 V c 0 t) (iblk1 V c 1 t) (iblk1 V c 2 t) p q, hG]
  refine lnrelu_congr (fun k => ?_) ?_ ?_ ?_
  · have hk : k.val < 128 := k.isLt
    show V c main_v51 (((cfg1.win 0).blk t).view.emb (ix2 p k)) = _
    rw [ha]; refine congrArg XA ?_
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 128 + 1 * k.val = k.val; omega
  · show V c main_v52 (((cfg1.win 1).blk t).view.emb (ix2 0 q)) = _
    rw [hg]; refine congrArg XG ?_
    funext a; apply Fin.ext
    match a with
    | ⟨0, _⟩ => show win1_1.index t (0 : Fin 2) * 1 + 1 * 0 = 0; omega
    | ⟨1, _⟩ => show win1_1.index t (1 : Fin 2) * 128 + 1 * q.val = win1_3.index t (1 : Fin 2) * 128 + 1 * q.val; omega
  · show V c main_v53 (((cfg1.win 2).blk t).view.emb (ix2 0 q)) = _
    rw [hb]; refine congrArg XB ?_
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  · apply Fin.ext
    show q.val = win1_3.index t (1 : Fin 2) * 128 + 1 * q.val
    omega

/-- An index of the output array is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v54).slice (win1_3.rect t)).set ↔ _
  rw [View.set_slice_whole, Rect.mem_set_unit]
  exact Iff.rfl

/-- The ten row blocks cover the output array: row `r` lies in block `r / 10000`. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The output array after the region, for arrays as above. -/
theorem final_of (c : Dev nD) (XA : (⟨S100000x128, .f32⟩ : BufTy).Contents (Elt Ideal)) (XG XB : (⟨S1x128, .f32⟩ : BufTy).Contents (Elt Ideal)) (G : (⟨S100000x128, .f32⟩ : BufTy).Contents (Elt Ideal))
    (ha : V c main_v51 = XA) (hg : V c main_v52 = XG) (hb : V c main_v53 = XB)
    (hG : ∀ i : S100000x128.Idx, G i = lnrelu (fun k => XA (rc i k)) (XG (gj i)) (XB (gj i)) ⟨(i 1).val, (i 1).isLt⟩) :
    (dat1 V c).arrAt 3 cfg1.N = G :=
  (dat1 V c).arrAt_eq_of_cover 3 G (fun t _ => flushed_eq V c t XA XG XB G ha hg hb hG) (cover)

end Cert.KernelIdeal.Region1

end
-- ==== Proof.Region2.lean ====
/-
  Region 2 of @main: the row-tiled matrix product.  Grid point t takes rows [10000·t, 10000·t + 10000) of the left
  operand and the whole right operand, and writes back the product of that block of rows: entry (r, c) of the block
  is the sum over k of left(10000·t + r, k) · right(k, c) — at the ideal values the rounding of both operands to
  bf16 on the way into the product is the identity and the accumulator starts at zero.  That is entry
  (10000·t + r, c) of the whole product, the host's `dot_general` of the two arrays.  The ten blocks tile the
  output array, so after the region the array is the whole product.
-/
import proofs.«109005_j30331059044677_1_alg».proof.Proof.Gen.KernelIdeal.Frame
import proofs.«109005_j30331059044677_1_alg».proof.Proof.RefRead
import Idealize.ShloMosaic.Lib.ValueIdx
import Idealize.ShloMosaic.Lib.Pipeline.Value
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat)
open Cert.ReferenceIdeal.ReadP

theorem hz : (![0, 0] : Fin 2 → Nat) = fun _ => 0 := funext fun a => by fin_cases a <;> rfl

/-- Left factor's index at output entry `j` and contraction position `k`: (row of j, k). -/
abbrev li (j : S10000x64.Idx) (k : Fin 128) : S10000x128.Idx := fun a => match a with
  | ⟨0, _⟩ => ⟨(j 0).val, (j 0).isLt⟩
  | ⟨1, _⟩ => ⟨k.val, k.isLt⟩
/-- Right factor's index: (k, column of j). -/
abbrev ri (j : S10000x64.Idx) (k : Fin 128) : S128x64.Idx := fun a => match a with
  | ⟨0, _⟩ => ⟨k.val, k.isLt⟩
  | ⟨1, _⟩ => ⟨(j 1).val, (j 1).isLt⟩

theorem lhs0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem rhs0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem rhs1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The block product at an entry: the plain sum over the contracted axis. -/
theorem prod_apply (x : Vec Ideal S10000x128 .f32) (w : Vec Ideal S128x64 .f32) (j : S10000x64.Idx) :
    (matmul (F := Ideal) dot_S10000x128_S128x64_S10000x64_1_0_0_1_n_n none (truncf .bf16 x bitsLt_bf16_f32) (truncf .bf16 w bitsLt_bf16_f32) (constant S10000x64 .f32 0x00000000#32)) j
      = ∑ k : Fin 128, x (li j k) * w (ri j k) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = li j k := funext fun a => Fin.ext (by
    match a with
    | ⟨0, _⟩ => exact lhs0 _ _
    | ⟨1, _⟩ => exact (lhs1 _ _).trans hk)
  have er : dot_S10000x128_S128x64_S10000x64_1_0_0_1_n_n.rhsIdx j ((ValueIdx.contrEquiv1 dot_S10000x128_S128x64_S10000x64_1_0_0_1_n_n 128 rfl rfl).symm k) = ri j k := funext fun a => Fin.ext (by
    match a with
    | ⟨0, _⟩ => exact (rhs0 _ _).trans hk
    | ⟨1, _⟩ => exact rhs1 _ _)
  rw [el, er]
  rfl

variable (V : (c : Dev nD) → (b : Ref sig .tc) → Buf (Elt Ideal) ((c : Thread nD τ).loc b))

/-- The index maps over the grid: the left operand's and the output's row blocks move together with the grid point,
    every other block index is zero, and there are ten row blocks. -/
theorem idx_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten row blocks is some grid point's. -/
theorem idx_onto : ∀ q : Fin 10, ∃ t : Fin cfg2.N, win2_2.index t = ![q.val, 0] :=
  (by decide +kernel : ∀ q : Fin 10, ∃ t : Fin grid2.N, win2_2.index t = ![q.val, 0])

/-- The payload at an entry of the block. -/
theorem pay_apply (x : Vec Ideal S10000x128 .f32) (w : Vec Ideal S128x64 .f32) (j : S10000x64.Idx) :
    k2_pay1 x w j = ∑ k : Fin 128, x (li j k) * w (ri j k) := by
  unfold k2_pay1
  simp only [shapeCast_self]
  exact prod_apply x w j

/-- What grid point `t` writes back is block `t` of any whole array `G` whose entry (r, c) is the sum over k of
    left(r, k) · right(k, c), for the arrays `XL`, `XR` the region finds. -/
theorem flushed_eq (c : Dev nD) (t : Fin cfg2.N) (XL : (⟨S100000x128, .f32⟩ : BufTy).Contents (Elt Ideal)) (XR : (⟨S128x64, .f32⟩ : BufTy).Contents (Elt Ideal)) (G : (⟨S100000x64, .f32⟩ : BufTy).Contents (Elt Ideal))
    (hl : V c main_v54 = XL) (hr : V c main_arg6 = XR)
    (hG : ∀ i : S100000x64.Idx, G i = ∑ k : Fin 128, XL (lidx_main_v77 i k) * XR (ridx_main_v77 i k)) :
    (dat2 V c).flushed 2 t = ((cfg2.win 2).blk t).view.read (Elt Ideal) G := by
  show (cfg2.win 2).cut (grid2.coords t) ((dat2 V c).after 2 t) = _
  rw [after2_2]
  unfold out2_2
  rw [View.canon_unit_zero hz]
  simp only [View.ld_unit_zero (S := S10000x128) hz, View.ld_unit_zero (S := S128x64) hz]
  obtain ⟨e0, e1, e2, e3, e4, e5⟩ := idx_facts t
  funext j
  have hj0 : (j 0).val < 10000 := (j 0).isLt
  have hj1 : (j 1).val < 64 := (j 1).isLt
  show k2_pay1 (iblk2 V c 0 t) (iblk2 V c 1 t) j = G (((cfg2.win 2).blk t).view.emb j)
  rw [pay_apply (iblk2 V c 0 t) (iblk2 V c 1 t) j, hG]
  refine Finset.sum_congr rfl fun k _ => ?_
  ·
    have hk : k.val < 128 := k.isLt
    have a1 : iblk2 V c 0 t (li j k) = XL (lidx_main_v77 (((cfg2.win 2).blk t).view.emb j) k) := by
      show V c main_v54 (((cfg2.win 0).blk t).view.emb (li j k)) = _
      rw [hl]; refine congrArg XL ?_
      funext a; apply Fin.ext
      match a with
      | ⟨0, _⟩ => show win2_0.index t (0 : Fin 2) * 10000 + 1 * (j 0).val = win2_2.index t (0 : Fin 2) * 10000 + 1 * (j 0).val; omega
      | ⟨1, _⟩ => show win2_0.index t (1 : Fin 2) * 128 + 1 * k.val = k.val; omega
    have a2 : iblk2 V c 1 t (ri j k) = XR (ridx_main_v77 (((cfg2.win 2).blk t).view.emb j) k) := by
      show V c main_arg6 (((cfg2.win 1).blk t).view.emb (ri j k)) = _
      rw [hr]; refine congrArg XR ?_
      funext a; apply Fin.ext
      match a with
      | ⟨0, _⟩ => show win2_1.index t (0 : Fin 2) * 128 + 1 * k.val = k.val; omega
      | ⟨1, _⟩ => show win2_1.index t (1 : Fin 2) * 64 + 1 * (j 1).val = win2_2.index t (1 : Fin 2) * 64 + 1 * (j 1).val; omega
    exact congrArg₂ (fun a b : EReal => a * b) a1 a2

/-- An index of the output array is in point `t`'s block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v55).slice (win2_2.rect t)).set ↔ _
  rw [View.set_slice_whole, Rect.mem_set_unit]
  exact Iff.rfl

/-- The ten row blocks cover the output array: row `r` lies in block `r / 10000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The output array after the region, for arrays as above. -/
theorem final_of (c : Dev nD) (XL : (⟨S100000x128, .f32⟩ : BufTy).Contents (Elt Ideal)) (XR : (⟨S128x64, .f32⟩ : BufTy).Contents (Elt Ideal)) (G : (⟨S100000x64, .f32⟩ : BufTy).Contents (Elt Ideal))
    (hl : V c main_v54 = XL) (hr : V c main_arg6 = XR)
    (hG : ∀ i : S100000x64.Idx, G i = ∑ k : Fin 128, XL (lidx_main_v77 i k) * XR (ridx_main_v77 i k)) :
    (dat2 V c).arrAt 2 cfg2.N = G :=
  (dat2 V c).arrAt_eq_of_cover 2 G (fun t _ => flushed_eq V c t XL XR G hl hr hG) (cover)

/-- The output array after region 2: the host's whole product of the LayerNorm-and-clamp stage with the second weights. -/
theorem final (c : Dev nD) (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) (x6 : (⟨S128x64, .f32⟩ : BufTy).Contents (Elt Ideal))
    (hl : V c main_v54 = val_main_v76 (F := Ideal) x0 x1 x2 x3 x4 x5) (hr : V c main_arg6 = x6) :
    (dat2 V c).arrAt 2 cfg2.N = val_main_v77 (F := Ideal) x0 x1 x2 x3 x4 x5 x6 :=
  final_of V c _ _ _ hl hr (fun i => val_main_v77_apply x0 x1 x2 x3 x4 x5 x6 i)

end Cert.KernelIdeal.Region2

end
-- ==== Proof.Region3.lean ====
/-
  Region 3 of @main: the row-tiled matrix product.  Grid point t takes rows [10000·t, 10000·t + 10000) of the left
  operand and the whole right operand, and writes back the product of that block of rows: entry (r, c) of the block
  is the sum over k of left(10000·t + r, k) · right(k, c) — at the ideal values the rounding of both operands to
  bf16 on the way into the product is the identity and the accumulator starts at zero.  That is entry
  (10000·t + r, c) of the whole product, the host's `dot_general` of the two arrays, and the bias row added to every
  row is the host's broadcast of it added to the whole product.  The ten blocks tile the
  output array, so after the region the array is the whole product plus bias.
-/
import proofs.«109005_j30331059044677_1_alg».proof.Proof.Gen.KernelIdeal.Frame
import proofs.«109005_j30331059044677_1_alg».proof.Proof.RefRead
import proofs.«109005_j30331059044677_1_alg».proof.Proof.LibBroadcastTo
import Idealize.ShloMosaic.Lib.ValueIdx
import Idealize.ShloMosaic.Lib.Pipeline.Value
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat)
open Cert.ReferenceIdeal.ReadP

theorem hz : (![0, 0] : Fin 2 → Nat) = fun _ => 0 := funext fun a => by fin_cases a <;> rfl

/-- Left factor's index at output entry `j` and contraction position `k`: (row of j, k). -/
abbrev li (j : S10000x32.Idx) (k : Fin 64) : S10000x64.Idx := fun a => match a with
  | ⟨0, _⟩ => ⟨(j 0).val, (j 0).isLt⟩
  | ⟨1, _⟩ => ⟨k.val, k.isLt⟩
/-- Right factor's index: (k, column of j). -/
abbrev ri (j : S10000x32.Idx) (k : Fin 64) : S64x32.Idx := fun a => match a with
  | ⟨0, _⟩ => ⟨k.val, k.isLt⟩
  | ⟨1, _⟩ => ⟨(j 1).val, (j 1).isLt⟩

theorem lhs0 (i : S10000x32.Idx) (q : dot_S10000x64_S64x32_S10000x32_1_0_0_1_n_n.contr.Idx) : (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhs1 (i : S10000x32.Idx) (q : dot_S10000x64_S64x32_S10000x32_1_0_0_1_n_n.contr.Idx) : (dot_S10000x64_S64x32_S10000x32_1_0_0_1_n_n.lhsIdx i q 1).val = (q ⟨0, by decide⟩).val :=
  dot_S10000x64_S64x32_S10000x32_1_0_0_1_n_n.lhsIdx_val_of_single rfl i q
theorem rhs0 (i : S10000x32.Idx) (q : dot_S10000x64_S64x32_S10000x32_1_0_0_1_n_n.contr.Idx) : (dot_S10000x64_S64x32_S10000x32_1_0_0_1_n_n.rhsIdx i q 0).val = (q ⟨0, by decide⟩).val :=
  dot_S10000x64_S64x32_S10000x32_1_0_0_1_n_n.rhsIdx_val_of_single rfl i q
theorem rhs1 (i : S10000x32.Idx) (q : dot_S10000x64_S64x32_S10000x32_1_0_0_1_n_n.contr.Idx) : (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- The block product at an entry: the plain sum over the contracted axis. -/
theorem prod_apply (x : Vec Ideal S10000x64 .f32) (w : Vec Ideal S64x32 .f32) (j : S10000x32.Idx) :
    (matmul (F := Ideal) dot_S10000x64_S64x32_S10000x32_1_0_0_1_n_n none (truncf .bf16 x bitsLt_bf16_f32) (truncf .bf16 w bitsLt_bf16_f32) (constant S10000x32 .f32 0x00000000#32)) j
      = ∑ k : Fin 64, x (li j k) * w (ri j k) := by
  simp only [matmul]
  rw [Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx j ((ValueIdx.contrEquiv1 dot_S10000x64_S64x32_S10000x32_1_0_0_1_n_n 64 rfl rfl).symm k) = li j k := funext fun a => Fin.ext (by
    match a with
    | ⟨0, _⟩ => exact lhs0 _ _
    | ⟨1, _⟩ => exact (lhs1 _ _).trans hk)
  have er : dot_S10000x64_S64x32_S10000x32_1_0_0_1_n_n.rhsIdx j ((ValueIdx.contrEquiv1 dot_S10000x64_S64x32_S10000x32_1_0_0_1_n_n 64 rfl rfl).symm k) = ri j k := funext fun a => Fin.ext (by
    match a with
    | ⟨0, _⟩ => exact (rhs0 _ _).trans hk
    | ⟨1, _⟩ => exact rhs1 _ _)
  rw [el, er]
  rfl

variable (V : (c : Dev nD) → (b : Ref sig .tc) → Buf (Elt Ideal) ((c : Thread nD τ).loc b))

/-- The bias row's index for the column of an output entry, inside a block and in the whole array. -/
abbrev bi (j : S10000x32.Idx) : S1x32.Idx := fun a => match a with
  | ⟨0, _⟩ => ⟨0, Nat.one_pos⟩
  | ⟨1, _⟩ => ⟨(j 1).val, (j 1).isLt⟩
abbrev bj (i : S100000x32.Idx) : S1x32.Idx := fun a => match a with
  | ⟨0, _⟩ => ⟨0, Nat.one_pos⟩
  | ⟨1, _⟩ => ⟨(i 1).val, (i 1).isLt⟩

/-- The index maps over the grid: the left operand's and the output's row blocks move together with the grid point,
    every other block index is zero, and there are ten row blocks. -/
theorem idx_facts : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_3.index t (1 : Fin 2) = 0 ∧ win3_3.index t (0 : Fin 2) ≤ 9
    ∧ win3_2.index t (0 : Fin 2) = 0 ∧ win3_2.index t (1 : Fin 2) = 0 :=
  (by decide +kernel : ∀ t : Fin grid3.N, _)

/-- Every one of the ten row blocks is some grid point's. -/
theorem idx_onto : ∀ q : Fin 10, ∃ t : Fin cfg3.N, win3_3.index t = ![q.val, 0] :=
  (by decide +kernel : ∀ q : Fin 10, ∃ t : Fin grid3.N, win3_3.index t = ![q.val, 0])

/-- The payload at an entry of the block. -/
theorem pay_apply (x : Vec Ideal S10000x64 .f32) (w : Vec Ideal S64x32 .f32) (b : Vec Ideal S1x32 .f32) (j : S10000x32.Idx) :
    k3_pay1 x w b j = (∑ k : Fin 64, x (li j k) * w (ri j k)) + b (bi j) := by
  obtain ⟨p, q, rfl⟩ : ∃ (p : Fin 10000) (q : Fin 32), j = ValueIdx.ix2 p q := ⟨j 0, j 1, ValueIdx.eq_ix2 j⟩
  unfold k3_pay1
  simp only [shapeCast_self]
  show (matmul (F := Ideal) dot_S10000x64_S64x32_S10000x32_1_0_0_1_n_n none (truncf .bf16 x bitsLt_bf16_f32) (truncf .bf16 w bitsLt_bf16_f32) (constant S10000x32 .f32 0x00000000#32)) (ValueIdx.ix2 p q)
      + broadcastTo S10000x32 b broadcasts_S1x32_S10000x32 (ValueIdx.ix2 p q) = _
  rw [prod_apply x w (ValueIdx.ix2 p q), Cert.BroadcastTo.row_apply b broadcasts_S1x32_S10000x32 p q]
  refine congrArg (fun z : EReal => (∑ k : Fin 64, x (li (ValueIdx.ix2 p q) k) * w (ri (ValueIdx.ix2 p q) k)) + z) (congrArg b ?_)
  funext a; apply Fin.ext
  match a with
  | ⟨0, _⟩ => rfl
  | ⟨1, _⟩ => rfl

/-- What grid point `t` writes back is block `t` of any whole array `G` whose entry (r, c) is the sum over k of
    left(r, k) · right(k, c) plus the bias at column c, for the arrays `XL`, `XR`, `BV` the region finds. -/
theorem flushed_eq (c : Dev nD) (t : Fin cfg3.N) (XL : (⟨S100000x64, .f32⟩ : BufTy).Contents (Elt Ideal)) (XR : (⟨S64x32, .f32⟩ : BufTy).Contents (Elt Ideal)) (BV : (⟨S1x32, .f32⟩ : BufTy).Contents (Elt Ideal)) (G : (⟨S100000x32, .f32⟩ : BufTy).Contents (Elt Ideal))
    (hl : V c main_v71 = XL) (hr : V c main_arg8 = XR) (hb : V c main_v72 = BV)
    (hG : ∀ i : S100000x32.Idx, G i = (∑ k : Fin 64, XL (lidx_main_v94 i k) * XR (ridx_main_v94 i k)) + BV (bj i)) :
    (dat3 V c).flushed 3 t = ((cfg3.win 3).blk t).view.read (Elt Ideal) G := by
  show (cfg3.win 3).cut (grid3.coords t) ((dat3 V c).after 3 t) = _
  rw [after3_3]
  unfold out3_3
  rw [View.canon_unit_zero hz]
  simp only [View.ld_unit_zero (S := S10000x64) hz, View.ld_unit_zero (S := S64x32) hz, View.ld_unit_zero (S := S1x32) hz]
  obtain ⟨e0, e1, e2, e3, e4, e5, e6, e7⟩ := idx_facts t
  funext j
  have hj0 : (j 0).val < 10000 := (j 0).isLt
  have hj1 : (j 1).val < 32 := (j 1).isLt
  show k3_pay1 (iblk3 V c 0 t) (iblk3 V c 1 t) (iblk3 V c 2 t) j = G (((cfg3.win 3).blk t).view.emb j)
  rw [pay_apply (iblk3 V c 0 t) (iblk3 V c 1 t) (iblk3 V c 2 t) j, hG]
  refine congrArg₂ (fun a b : EReal => a + b) (Finset.sum_congr rfl fun k _ => ?_) ?_
  ·
    have hk : k.val < 64 := k.isLt
    have a1 : iblk3 V c 0 t (li j k) = XL (lidx_main_v94 (((cfg3.win 3).blk t).view.emb j) k) := by
      show V c main_v71 (((cfg3.win 0).blk t).view.emb (li j k)) = _
      rw [hl]; refine congrArg XL ?_
      funext a; apply Fin.ext
      match a with
      | ⟨0, _⟩ => show win3_0.index t (0 : Fin 2) * 10000 + 1 * (j 0).val = win3_3.index t (0 : Fin 2) * 10000 + 1 * (j 0).val; omega
      | ⟨1, _⟩ => show win3_0.index t (1 : Fin 2) * 64 + 1 * k.val = k.val; omega
    have a2 : iblk3 V c 1 t (ri j k) = XR (ridx_main_v94 (((cfg3.win 3).blk t).view.emb j) k) := by
      show V c main_arg8 (((cfg3.win 1).blk t).view.emb (ri j k)) = _
      rw [hr]; refine congrArg XR ?_
      funext a; apply Fin.ext
      match a with
      | ⟨0, _⟩ => show win3_1.index t (0 : Fin 2) * 64 + 1 * k.val = k.val; omega
      | ⟨1, _⟩ => show win3_1.index t (1 : Fin 2) * 32 + 1 * (j 1).val = win3_3.index t (1 : Fin 2) * 32 + 1 * (j 1).val; omega
    exact congrArg₂ (fun a b : EReal => a * b) a1 a2
  · show V c main_v72 (((cfg3.win 2).blk t).view.emb (bi j)) = _
    rw [hb]; refine congrArg BV ?_
    funext a; apply Fin.ext
    match a with
    | ⟨0, _⟩ => show win3_2.index t (0 : Fin 2) * 1 + 1 * 0 = 0; omega
    | ⟨1, _⟩ => show win3_2.index t (1 : Fin 2) * 32 + 1 * (j 1).val = win3_3.index t (1 : Fin 2) * 32 + 1 * (j 1).val; omega

/-- An index of the output array is in point `t`'s block iff each coordinate is in the block's range on its axis. -/
theorem mem_blk (t : Fin cfg3.N) (i : S100000x32.Idx) :
    i ∈ ((cfg3.win 3).blk t).view.set ↔ ∀ a : Fin 2, win3_3.index t a * S10000x32.size a ≤ (i a).val ∧ (i a).val < win3_3.index t a * S10000x32.size a + S10000x32.size a := by
  show i ∈ ((View.whole main_v73).slice (win3_3.rect t)).set ↔ _
  rw [View.set_slice_whole, Rect.mem_set_unit]
  exact Iff.rfl

/-- The ten row blocks cover the output array: row `r` lies in block `r / 10000`. -/
theorem cover (i : S100000x32.Idx) : ∃ t : Fin cfg3.N, (cfg3.win 3).flush t = true ∧ i ∈ ((cfg3.win 3).blk t).view.set := by
  have hi0 : (i 0).val < 100000 := (i 0).isLt
  have hi1 : (i 1).val < 32 := (i 1).isLt
  obtain ⟨t, ht⟩ := idx_onto ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 32 ≤ (i 1).val ∧ (i 1).val < win3_3.index t (1 : Fin 2) * 32 + 32; omega

/-- The output array after the region, for arrays as above. -/
theorem final_of (c : Dev nD) (XL : (⟨S100000x64, .f32⟩ : BufTy).Contents (Elt Ideal)) (XR : (⟨S64x32, .f32⟩ : BufTy).Contents (Elt Ideal)) (BV : (⟨S1x32, .f32⟩ : BufTy).Contents (Elt Ideal)) (G : (⟨S100000x32, .f32⟩ : BufTy).Contents (Elt Ideal))
    (hl : V c main_v71 = XL) (hr : V c main_arg8 = XR) (hb : V c main_v72 = BV)
    (hG : ∀ i : S100000x32.Idx, G i = (∑ k : Fin 64, XL (lidx_main_v94 i k) * XR (ridx_main_v94 i k)) + BV (bj i)) :
    (dat3 V c).arrAt 3 cfg3.N = G :=
  (dat3 V c).arrAt_eq_of_cover 3 G (fun t _ => flushed_eq V c t XL XR BV G hl hr hb hG) (cover)

/-- A [32] vector reshaped to a [1, 32] row reads, at (0, c), the vector at c. -/
theorem biasRow (x9 : (⟨S32, .f32⟩ : BufTy).Contents (Elt Ideal)) (i : S100000x32.Idx) :
    shapeCast S1x32 x9 shapeCasts_S32_S1x32 (bj i) = x9 (Cert.ReferenceIdeal.ReadP.idx_main_v95 (Cert.ReferenceIdeal.ReadP.idx_main_v96 i)) :=
  shapeCast_apply x9 shapeCasts_S32_S1x32 (bj i) _ (by
    rw [Shape.rowMajor_val_two, Shape.rowMajor_val_one]
    show (i 1).val = 0 * 32 + (i 1).val
    omega)

/-- The output array after region 3: the host's whole product of the embeddings with the classifier weights, plus the
    broadcast bias — the reference's last stage. -/
theorem final (c : Dev nD) (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal))
    (hl : V c main_v71 = val_main_v93 (F := Ideal) x0 x1 x2 x3 x4 x5 x6 x7) (hr : V c main_arg8 = x8)
    (hb : V c main_v72 = shapeCast S1x32 x9 shapeCasts_S32_S1x32) :
    (dat3 V c).arrAt 3 cfg3.N = val_main_v97 (F := Ideal) x0 x1 x2 x3 x4 x5 x6 x7 x8 x9 :=
  final_of V c _ _ _ _ hl hr hb (fun i => by
    rw [val_main_v97_apply, val_main_v94_apply, val_main_v96_apply, val_main_v95_apply, biasRow x9 i]
    rfl)

end Cert.KernelIdeal.Region3

end
-- ==== Proof.RefNorm.lean ====
/-
  The reference's LayerNorm-and-clamp stage at an entry.  The host computes it with whole-array operations — a sum
  over the feature axis started at the literal zero, a broadcast of the column of sums, the division by the literal
  128, the subtraction, the square, the second sum and division, the addition of ε, rsqrt, the broadcasts of the
  scale and shift vectors, the maximum with the zero array — and, read at entry (r, c), that chain is `lnrelu` of row r
  of the stage it starts from: a sum started at zero is the plain sum, and every broadcast reads its operand at the
  coordinates of (r, c) it keeps.
-/
import proofs.«109005_j30331059044677_1_alg».proof.Proof.RefRead
import proofs.«109005_j30331059044677_1_alg».proof.Proof.RowNorm
import Idealize.ShloMosaic.PureOps.Ideal.Laws

set_option maxRecDepth 16384

noncomputable section

namespace Cert.ReferenceIdeal.RefNorm

open Cert.ReferenceIdeal Cert.ReferenceIdeal.ReadP Cert.RowNorm
open Idealize.ShloMosaic Idealize.ShloMosaic.TcCoe

attribute [local irreducible] val_main_v51

variable (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal))

/-- Row `r` of a [100000, 1] column index, at column k of the [100000, 128] array. -/
abbrev r1 (i1 : S100000x1.Idx) (k : Fin 128) : S100000x128.Idx := fun a => match a with
  | ⟨0, _⟩ => ⟨(i1 0).val, (i1 0).isLt⟩
  | ⟨1, _⟩ => ⟨k.val, k.isLt⟩

/-- The column of row means. -/
theorem mean_eq (i1 : S100000x1.Idx) :
    val_main_v55 (F := Ideal) x0 x1 x2 x3 i1 = rowMean (fun k => val_main_v51 (F := Ideal) x0 x1 x2 x3 (r1 i1 k)) := by
  rw [val_main_v55_apply, val_main_v53_apply, val_main_v52_apply, val_main_v54_apply, val_main_cst_12_apply, val_main_cst_11_apply]
  unfold rowMean
  rw [show (FloatOps.ofBits (F := Ideal) .f32 0#32 : EReal) = 0 from Ideal.ofBits_zero_f32, zero_add]
  have hi : ∀ k, idx_main_v52 (idx_main_v53 i1) k = r1 i1 k := fun k => funext fun a => Fin.ext (by match a with | ⟨0, _⟩ => rfl | ⟨1, _⟩ => rfl)
  simp only [hi]
  rfl

/-- The deviations from the row mean (the host computes them twice, once for the variance and once for the output). -/
theorem dev_eq (i : S100000x128.Idx) :
    val_main_v57 (F := Ideal) x0 x1 x2 x3 i
      = val_main_v51 (F := Ideal) x0 x1 x2 x3 i - rowMean (fun k => val_main_v51 (F := Ideal) x0 x1 x2 x3 (rc i k)) := by
  rw [val_main_v57_apply, val_main_v56_apply, mean_eq]
  have hi : ∀ k, r1 (idx_main_v56 i) k = rc i k := fun k => funext fun a => Fin.ext (by match a with | ⟨0, _⟩ => rfl | ⟨1, _⟩ => rfl)
  simp only [hi]
  rfl
theorem dev_eq' (i : S100000x128.Idx) :
    val_main_v64 (F := Ideal) x0 x1 x2 x3 i
      = val_main_v51 (F := Ideal) x0 x1 x2 x3 i - rowMean (fun k => val_main_v51 (F := Ideal) x0 x1 x2 x3 (rc i k)) := by
  rw [val_main_v64_apply, val_main_v63_apply, mean_eq]
  have hi : ∀ k, r1 (idx_main_v63 i) k = rc i k := fun k => funext fun a => Fin.ext (by match a with | ⟨0, _⟩ => rfl | ⟨1, _⟩ => rfl)
  simp only [hi]
  rfl

/-- The column of row variances. -/
theorem var_eq (i1 : S100000x1.Idx) :
    val_main_v62 (F := Ideal) x0 x1 x2 x3 i1 = rowVar (fun k => val_main_v51 (F := Ideal) x0 x1 x2 x3 (r1 i1 k)) := by
  rw [val_main_v62_apply, val_main_v60_apply, val_main_v59_apply, val_main_v61_apply, val_main_cst_14_apply, val_main_cst_13_apply]
  unfold rowVar
  rw [show (FloatOps.ofBits (F := Ideal) .f32 0#32 : EReal) = 0 from Ideal.ofBits_zero_f32, zero_add]
  refine congrArg (fun s : EReal => Ideal.div s (Ideal.ofBits .f32 0x43000000#32)) (Finset.sum_congr rfl fun k _ => ?_)
  rw [val_main_v58_apply, dev_eq]
  have e1 : idx_main_v59 (idx_main_v60 i1) k = r1 i1 k := funext fun a => Fin.ext (by match a with | ⟨0, _⟩ => rfl | ⟨1, _⟩ => rfl)
  rw [e1]
  have e2 : (fun k' => val_main_v51 (F := Ideal) x0 x1 x2 x3 (rc (r1 i1 k) k')) = fun k' => val_main_v51 (F := Ideal) x0 x1 x2 x3 (r1 i1 k') :=
    funext fun k' => congrArg _ (funext fun a => Fin.ext (by match a with | ⟨0, _⟩ => rfl | ⟨1, _⟩ => rfl))
  rw [e2]
  rfl

/-- The stage after the clamp, at an entry: `lnrelu` of that row of the stage the LayerNorm reads. -/
theorem ref_ln (i : S100000x128.Idx) :
    val_main_v76 (F := Ideal) x0 x1 x2 x3 x4 x5 i
      = lnrelu (fun k => val_main_v51 (F := Ideal) x0 x1 x2 x3 (rc i k)) (x4 (ci i)) (x5 (ci i)) ⟨(i 1).val, (i 1).isLt⟩ := by
  rw [val_main_v76_apply, val_main_v75_apply, val_main_v72_apply, val_main_v69_apply, dev_eq', val_main_v68_apply,
    val_main_v67_apply, val_main_v66_apply, var_eq, val_main_v65_apply, val_main_cst_15_apply, val_main_v71_apply,
    val_main_v70_apply, val_main_v74_apply, val_main_v73_apply, val_main_call1_v0_apply, val_main_call1_cst_apply]
  unfold lnrelu
  have er : (fun k => val_main_v51 (F := Ideal) x0 x1 x2 x3 (r1 (idx_main_v68 i) k)) = fun k => val_main_v51 (F := Ideal) x0 x1 x2 x3 (rc i k) :=
    funext fun k => congrArg _ (funext fun a => Fin.ext (by match a with | ⟨0, _⟩ => rfl | ⟨1, _⟩ => rfl))
  have hg : idx_main_v70 (idx_main_v71 i) = ci i := funext fun a => Fin.ext (by match a with | ⟨0, _⟩ => rfl)
  have hb : idx_main_v73 (idx_main_v74 i) = ci i := funext fun a => Fin.ext (by match a with | ⟨0, _⟩ => rfl)
  have hc : val_main_v51 (F := Ideal) x0 x1 x2 x3 i = val_main_v51 (F := Ideal) x0 x1 x2 x3 (rc i ⟨(i 1).val, (i 1).isLt⟩) :=
    congrArg _ (funext fun a => Fin.ext (by match a with | ⟨0, _⟩ => rfl | ⟨1, _⟩ => rfl))
  rw [er, hg, hb, hc]
  rfl

end Cert.ReferenceIdeal.RefNorm

end
-- ==== Proof.LibTypedRef.lean ====
/-
  Typed references of an inlined function call: contents carried along a type equation and back.

  A value of a called function lives in a buffer whose declared type equals the value's type by an equation
  (`StableHlo.TRef.ty_eq`); the builders of a called function's operations carry contents across that equation in both
  directions (`toBuf`, `ofBuf`: a `cast`). Three facts, none of which looks inside the contents:
    * `ofBuf_toBuf`: to the buffer's type and back is the identity, for any typed reference;
    * `toBuf_of`, `ofBuf_of`: at a literal reference taken at its own type each direction is the identity.
  With them the result of a line of a called function's operations is read free of casts, whatever the contents are.
  Imports Lib/StableHlo only; general in the signature and the element values.
-/
import Idealize.ShloMosaic.Lib.StableHlo

namespace Cert.TypedRef

open Idealize.ShloMosaic

/-- Contents carried to a typed reference's buffer type and back are unchanged. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- At a reference taken at its own type, carrying contents to the buffer's type is the identity. -/
theorem toBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).toBuf v = v := rfl

/-- And carrying them back is the identity. -/
theorem ofBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).ofBuf v = v := rfl

end Cert.TypedRef
-- ==== Proof.Walk.lean ====
/-
  The contents of the result array at the last segment boundary, read back to the argument arrays.  @main is five
  stretches of host operations and four row-tiled regions.  Every host operation of the idealized kernel's @main is
  also an operation of the reference, applied to the same operands: the edge lists with the self loops appended, the
  degree count and the edge weights dinv[row]·dinv[col], the gather / scale / scatter-add of each graph convolution,
  the bias rows.  So each host stretch is the reference's own stage function of what it reads, and each region's
  output array is the reference's stage at that place (the whole matrix product, the whole LayerNorm-and-clamp, the
  whole product plus bias).  Walking the boundaries from the launch to the return gives the reference's last stage
  of the argument arrays.
-/
import proofs.«109005_j30331059044677_1_alg».proof.Proof.Region0
import proofs.«109005_j30331059044677_1_alg».proof.Proof.Region1
import proofs.«109005_j30331059044677_1_alg».proof.Proof.Region2
import proofs.«109005_j30331059044677_1_alg».proof.Proof.Region3
import proofs.«109005_j30331059044677_1_alg».proof.Proof.RefNorm
import proofs.«109005_j30331059044677_1_alg».proof.Proof.LibTypedRef
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo
open Cert.ReferenceIdeal.ReadP Cert.RowNorm

variable (m : (ℓ : Loc nD τ sig) → Buf (Elt Ideal) ℓ) (ρ : Dev nD → PrngReg) (c : Dev nD)

/-! ## Before region 0: the launch memory through the first three host stretches -/

theorem W3_arg0 : W3 m ρ c (Proc.devRef .tc main_arg0) = (m ((c : Thread nD τ).loc main_arg0)) := by
  dsimp only [W3, W2, W1, hostOps0_2, hostOps0_1, hostOps0]; after_results_simp <;> rfl

theorem W3_arg2 : W3 m ρ c (Proc.devRef .tc main_arg2) = (m ((c : Thread nD τ).loc main_arg2)) := by
  dsimp only [W3, W2, W1, hostOps0_2, hostOps0_1, hostOps0]; after_results_simp <;> rfl

theorem W3_arg3 : W3 m ρ c (Proc.devRef .tc main_arg3) = (m ((c : Thread nD τ).loc main_arg3)) := by
  dsimp only [W3, W2, W1, hostOps0_2, hostOps0_1, hostOps0]; after_results_simp <;> rfl

theorem W3_arg4 : W3 m ρ c (Proc.devRef .tc main_arg4) = (m ((c : Thread nD τ).loc main_arg4)) := by
  dsimp only [W3, W2, W1, hostOps0_2, hostOps0_1, hostOps0]; after_results_simp <;> rfl

theorem W3_arg5 : W3 m ρ c (Proc.devRef .tc main_arg5) = (m ((c : Thread nD τ).loc main_arg5)) := by
  dsimp only [W3, W2, W1, hostOps0_2, hostOps0_1, hostOps0]; after_results_simp <;> rfl

theorem W3_arg6 : W3 m ρ c (Proc.devRef .tc main_arg6) = (m ((c : Thread nD τ).loc main_arg6)) := by
  dsimp only [W3, W2, W1, hostOps0_2, hostOps0_1, hostOps0]; after_results_simp <;> rfl

theorem W3_arg7 : W3 m ρ c (Proc.devRef .tc main_arg7) = (m ((c : Thread nD τ).loc main_arg7)) := by
  dsimp only [W3, W2, W1, hostOps0_2, hostOps0_1, hostOps0]; after_results_simp <;> rfl

theorem W3_arg8 : W3 m ρ c (Proc.devRef .tc main_arg8) = (m ((c : Thread nD τ).loc main_arg8)) := by
  dsimp only [W3, W2, W1, hostOps0_2, hostOps0_1, hostOps0]; after_results_simp <;> rfl

theorem W3_arg9 : W3 m ρ c (Proc.devRef .tc main_arg9) = (m ((c : Thread nD τ).loc main_arg9)) := by
  dsimp only [W3, W2, W1, hostOps0_2, hostOps0_1, hostOps0]; after_results_simp <;> rfl

/-- The source-node list with the self loops appended. -/
theorem W3_v3 : W3 m ρ c (Proc.devRef .tc main_v3) = val_main_v3 (F := Ideal) (m ((c : Thread nD τ).loc main_arg1)) := by
  dsimp only [W3, W2, W1, hostOps0_2, hostOps0_1, hostOps0]; after_results_simp <;> rfl
/-- The target-node list with the self loops appended. -/
theorem W3_v6 : W3 m ρ c (Proc.devRef .tc main_v6) = val_main_v6 (F := Ideal) (m ((c : Thread nD τ).loc main_arg1)) := by
  dsimp only [W3, W2, W1, hostOps0_2, hostOps0_1, hostOps0]; after_results_simp <;> rfl
theorem W2_v3 : W2 m ρ c (Proc.devRef .tc main_v3) = val_main_v3 (F := Ideal) (m ((c : Thread nD τ).loc main_arg1)) := by
  dsimp only [W2, W1, hostOps0_1, hostOps0]; after_results_simp <;> rfl
theorem W2_v6 : W2 m ρ c (Proc.devRef .tc main_v6) = val_main_v6 (F := Ideal) (m ((c : Thread nD τ).loc main_arg1)) := by
  dsimp only [W2, W1, hostOps0_1, hostOps0]; after_results_simp <;> rfl
/-- Which nodes have a positive degree (every node does: each has its self loop). -/
theorem W1_v17 : W1 m ρ c (Proc.devRef .tc main_v17) = val_main_v17 (F := Ideal) (m ((c : Thread nD τ).loc main_arg1)) := by
  dsimp only [W1, hostOps0]; after_results_simp <;> rfl
/-- The reciprocal square roots of the degrees. -/
theorem W1_v18 : W1 m ρ c (Proc.devRef .tc main_v18) = val_main_v18 (F := Ideal) (m ((c : Thread nD τ).loc main_arg1)) := by
  dsimp only [W1, hostOps0]; after_results_simp <;> rfl
theorem W1_cst_3 : W1 m ρ c (Proc.devRef .tc main_cst_3) = val_main_cst_3 (F := Ideal) := by
  dsimp only [W1, hostOps0]; after_results_simp <;> rfl
/-- dinv: the reciprocal square root of the degree where it is positive, zero elsewhere. -/
theorem W2_v19 : W2 m ρ c (Proc.devRef .tc main_v19) = val_main_v19 (F := Ideal) (m ((c : Thread nD τ).loc main_arg1)) := by
  have h17 := W1_v17 m ρ c
  have h18 := W1_v18 m ρ c
  have hc3 := W1_cst_3 m ρ c
  dsimp only [W2, hostOps0_1]
  generalize W1 m ρ c = Wx at h17 h18 hc3 ⊢
  after_results_simp
  have e19 : ∀ h1 h2 h3 (v : (⟨S100000, .f32⟩ : BufTy).Contents (Elt Ideal)),
      (TRef.of (sig := sig) (T := ⟨S100000, .f32⟩) main_v19 h1 h2 h3).toBuf v = v := fun _ _ _ _ => rfl
  have e17 : ∀ h1 h2 h3 (v : (⟨S100000, .i1⟩ : BufTy).Contents (Elt Ideal)),
      (TRef.of (sig := sig) (T := ⟨S100000, .i1⟩) main_v17 h1 h2 h3).ofBuf v = v := fun _ _ _ _ => rfl
  have e18 : ∀ h1 h2 h3 (v : (⟨S100000, .f32⟩ : BufTy).Contents (Elt Ideal)),
      (TRef.of (sig := sig) (T := ⟨S100000, .f32⟩) main_v18 h1 h2 h3).ofBuf v = v := fun _ _ _ _ => rfl
  have ec : ∀ h1 h2 h3 (v : (⟨S_, .f32⟩ : BufTy).Contents (Elt Ideal)),
      (TRef.of (sig := sig) (T := ⟨S_, .f32⟩) main_cst_3 h1 h2 h3).ofBuf v = v := fun _ _ _ _ => rfl
  simp only [Cert.TypedRef.ofBuf_toBuf, e19, e17, e18, ec]
  rw [h17, h18, hc3]
  rfl
/-- The edge weights dinv[row] · dinv[col]. -/
theorem W3_v34 : W3 m ρ c (Proc.devRef .tc main_v34) = val_main_v34 (F := Ideal) (m ((c : Thread nD τ).loc main_arg1)) := by
  have h19 := W2_v19 m ρ c
  have h3 := W2_v3 m ρ c
  have h6 := W2_v6 m ρ c
  dsimp only [W3, hostOps0_2]
  generalize W2 m ρ c = Wx at h19 h3 h6 ⊢
  after_results_simp
  rw [h19, h3, h6]
  rfl

/-! ## The values later stretches and regions read, carried across the regions and stretches that do not write them -/
theorem W4_v3 : W4 m ρ c (Proc.devRef .tc main_v3) = val_main_v3 (F := Ideal) (m ((c : Thread nD τ).loc main_arg1)) :=
  (W4_of_ne m ρ c main_v3 (by decide)).trans (W3_v3 m ρ c)
theorem W5_v3 : W5 m ρ c (Proc.devRef .tc main_v3) = val_main_v3 (F := Ideal) (m ((c : Thread nD τ).loc main_arg1)) :=
  (by dsimp only [W5, hostOps1]; after_results_simp <;> rfl : W5 m ρ c (Proc.devRef .tc main_v3) = W4 m ρ c (Proc.devRef .tc main_v3)).trans (W4_v3 m ρ c)
theorem W6_v3 : W6 m ρ c (Proc.devRef .tc main_v3) = val_main_v3 (F := Ideal) (m ((c : Thread nD τ).loc main_arg1)) :=
  (W6_of_ne m ρ c main_v3 (by decide)).trans (W5_v3 m ρ c)
theorem W7_v3 : W7 m ρ c (Proc.devRef .tc main_v3) = val_main_v3 (F := Ideal) (m ((c : Thread nD τ).loc main_arg1)) :=
  (W7_of_ne m ρ c main_v3 (by decide)).trans (W6_v3 m ρ c)
theorem W4_v6 : W4 m ρ c (Proc.devRef .tc main_v6) = val_main_v6 (F := Ideal) (m ((c : Thread nD τ).loc main_arg1)) :=
  (W4_of_ne m ρ c main_v6 (by decide)).trans (W3_v6 m ρ c)
theorem W5_v6 : W5 m ρ c (Proc.devRef .tc main_v6) = val_main_v6 (F := Ideal) (m ((c : Thread nD τ).loc main_arg1)) :=
  (by dsimp only [W5, hostOps1]; after_results_simp <;> rfl : W5 m ρ c (Proc.devRef .tc main_v6) = W4 m ρ c (Proc.devRef .tc main_v6)).trans (W4_v6 m ρ c)
theorem W6_v6 : W6 m ρ c (Proc.devRef .tc main_v6) = val_main_v6 (F := Ideal) (m ((c : Thread nD τ).loc main_arg1)) :=
  (W6_of_ne m ρ c main_v6 (by decide)).trans (W5_v6 m ρ c)
theorem W7_v6 : W7 m ρ c (Proc.devRef .tc main_v6) = val_main_v6 (F := Ideal) (m ((c : Thread nD τ).loc main_arg1)) :=
  (W7_of_ne m ρ c main_v6 (by decide)).trans (W6_v6 m ρ c)
theorem W4_v34 : W4 m ρ c (Proc.devRef .tc main_v34) = val_main_v34 (F := Ideal) (m ((c : Thread nD τ).loc main_arg1)) :=
  (W4_of_ne m ρ c main_v34 (by decide)).trans (W3_v34 m ρ c)
theorem W5_v34 : W5 m ρ c (Proc.devRef .tc main_v34) = val_main_v34 (F := Ideal) (m ((c : Thread nD τ).loc main_arg1)) :=
  (by dsimp only [W5, hostOps1]; after_results_simp <;> rfl : W5 m ρ c (Proc.devRef .tc main_v34) = W4 m ρ c (Proc.devRef .tc main_v34)).trans (W4_v34 m ρ c)
theorem W6_v34 : W6 m ρ c (Proc.devRef .tc main_v34) = val_main_v34 (F := Ideal) (m ((c : Thread nD τ).loc main_arg1)) :=
  (W6_of_ne m ρ c main_v34 (by decide)).trans (W5_v34 m ρ c)
theorem W7_v34 : W7 m ρ c (Proc.devRef .tc main_v34) = val_main_v34 (F := Ideal) (m ((c : Thread nD τ).loc main_arg1)) :=
  (W7_of_ne m ρ c main_v34 (by decide)).trans (W6_v34 m ρ c)
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)
theorem W5_arg6 : W5 m ρ c (Proc.devRef .tc main_arg6) = (m ((c : Thread nD τ).loc main_arg6)) :=
  (by dsimp only [W5, hostOps1]; after_results_simp <;> rfl : W5 m ρ c (Proc.devRef .tc main_arg6) = W4 m ρ c (Proc.devRef .tc main_arg6)).trans (W4_arg6 m ρ c)
theorem W6_arg6 : W6 m ρ c (Proc.devRef .tc main_arg6) = (m ((c : Thread nD τ).loc main_arg6)) :=
  (W6_of_ne m ρ c main_arg6 (by decide)).trans (W5_arg6 m ρ c)
theorem W4_arg7 : W4 m ρ c (Proc.devRef .tc main_arg7) = (m ((c : Thread nD τ).loc main_arg7)) :=
  (W4_of_ne m ρ c main_arg7 (by decide)).trans (W3_arg7 m ρ c)
theorem W5_arg7 : W5 m ρ c (Proc.devRef .tc main_arg7) = (m ((c : Thread nD τ).loc main_arg7)) :=
  (by dsimp only [W5, hostOps1]; after_results_simp <;> rfl : W5 m ρ c (Proc.devRef .tc main_arg7) = W4 m ρ c (Proc.devRef .tc main_arg7)).trans (W4_arg7 m ρ c)
theorem W6_arg7 : W6 m ρ c (Proc.devRef .tc main_arg7) = (m ((c : Thread nD τ).loc main_arg7)) :=
  (W6_of_ne m ρ c main_arg7 (by decide)).trans (W5_arg7 m ρ c)
theorem W7_arg7 : W7 m ρ c (Proc.devRef .tc main_arg7) = (m ((c : Thread nD τ).loc main_arg7)) :=
  (W7_of_ne m ρ c main_arg7 (by decide)).trans (W6_arg7 m ρ c)
theorem W4_arg9 : W4 m ρ c (Proc.devRef .tc main_arg9) = (m ((c : Thread nD τ).loc main_arg9)) :=
  (W4_of_ne m ρ c main_arg9 (by decide)).trans (W3_arg9 m ρ c)
theorem W5_arg9 : W5 m ρ c (Proc.devRef .tc main_arg9) = (m ((c : Thread nD τ).loc main_arg9)) :=
  (by dsimp only [W5, hostOps1]; after_results_simp <;> rfl : W5 m ρ c (Proc.devRef .tc main_arg9) = W4 m ρ c (Proc.devRef .tc main_arg9)).trans (W4_arg9 m ρ c)
theorem W6_arg9 : W6 m ρ c (Proc.devRef .tc main_arg9) = (m ((c : Thread nD τ).loc main_arg9)) :=
  (W6_of_ne m ρ c main_arg9 (by decide)).trans (W5_arg9 m ρ c)
theorem W7_arg9 : W7 m ρ c (Proc.devRef .tc main_arg9) = (m ((c : Thread nD τ).loc main_arg9)) :=
  (W7_of_ne m ρ c main_arg9 (by decide)).trans (W6_arg9 m ρ c)
theorem W4_arg8 : W4 m ρ c (Proc.devRef .tc main_arg8) = (m ((c : Thread nD τ).loc main_arg8)) :=
  (W4_of_ne m ρ c main_arg8 (by decide)).trans (W3_arg8 m ρ c)
theorem W5_arg8 : W5 m ρ c (Proc.devRef .tc main_arg8) = (m ((c : Thread nD τ).loc main_arg8)) :=
  (by dsimp only [W5, hostOps1]; after_results_simp <;> rfl : W5 m ρ c (Proc.devRef .tc main_arg8) = W4 m ρ c (Proc.devRef .tc main_arg8)).trans (W4_arg8 m ρ c)
theorem W6_arg8 : W6 m ρ c (Proc.devRef .tc main_arg8) = (m ((c : Thread nD τ).loc main_arg8)) :=
  (W6_of_ne m ρ c main_arg8 (by decide)).trans (W5_arg8 m ρ c)
theorem W7_arg8 : W7 m ρ c (Proc.devRef .tc main_arg8) = (m ((c : Thread nD τ).loc main_arg8)) :=
  (W7_of_ne m ρ c main_arg8 (by decide)).trans (W6_arg8 m ρ c)
theorem W8_arg8 : W8 m ρ c (Proc.devRef .tc main_arg8) = (m ((c : Thread nD τ).loc main_arg8)) :=
  (by dsimp only [W8, hostOps3]; after_results_simp <;> rfl : W8 m ρ c (Proc.devRef .tc main_arg8) = W7 m ρ c (Proc.devRef .tc main_arg8)).trans (W7_arg8 m ρ c)

/-! ## Region 0: the first dense product -/

/-- After region 0 its output array is the whole product x · W1. -/
theorem W4_v35 : W4 m ρ c (Proc.devRef .tc main_v35) = val_main_v35 (F := Ideal) (m ((c : Thread nD τ).loc main_arg0)) (m ((c : Thread nD τ).loc main_arg2)) := by
  refine (W4_arr m ρ c 2).trans ?_
  exact Cert.KernelIdeal.Region0.final (V3 m ρ) c _ _ (W3_arg0 m ρ c) (W3_arg2 m ρ c)

/-! ## The first graph convolution's gather, scale, scatter-add and bias; the scale and shift rows -/

theorem W5_v51 : W5 m ρ c (Proc.devRef .tc main_v51) = val_main_v51 (F := Ideal) (m ((c : Thread nD τ).loc main_arg0)) (m ((c : Thread nD τ).loc main_arg1)) (m ((c : Thread nD τ).loc main_arg2)) (m ((c : Thread nD τ).loc main_arg3)) := by
  have h35 := W4_v35 m ρ c
  have h3 := W4_v3 m ρ c
  have h6 := W4_v6 m ρ c
  have h34 := W4_v34 m ρ c
  have ha3 := W4_arg3 m ρ c
  dsimp only [W5, hostOps1]
  after_results_simp
  rw [h35, h3, h6, h34, ha3]
  rfl

theorem W5_v52 : W5 m ρ c (Proc.devRef .tc main_v52) = shapeCast S1x128 (m ((c : Thread nD τ).loc main_arg4)) shapeCasts_S128_S1x128 := by
  have ha4 := W4_arg4 m ρ c
  dsimp only [W5, hostOps1]
  after_results_simp
  rw [ha4]
  rfl

theorem W5_v53 : W5 m ρ c (Proc.devRef .tc main_v53) = shapeCast S1x128 (m ((c : Thread nD τ).loc main_arg5)) shapeCasts_S128_S1x128 := by
  have ha5 := W4_arg5 m ρ c
  dsimp only [W5, hostOps1]
  after_results_simp
  rw [ha5]
  rfl

/-! ## Region 1: LayerNorm and the clamp at zero -/

/-- A [128] vector reshaped to a [1, 128] row reads, at (0, c), the vector at c. -/
theorem rowCast (x : (⟨S128, .f32⟩ : BufTy).Contents (Elt Ideal)) (i : S100000x128.Idx) :
    shapeCast S1x128 x shapeCasts_S128_S1x128 (gj i) = x (ci i) :=
  shapeCast_apply x shapeCasts_S128_S1x128 (gj i) (ci i) (by
    rw [Shape.rowMajor_val_two, Shape.rowMajor_val_one]
    show (i 1).val = 0 * 128 + (i 1).val
    omega)

theorem W6_v54 : W6 m ρ c (Proc.devRef .tc main_v54) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ?_
  exact Cert.KernelIdeal.Region1.final_of (V5 m ρ) c _ _ _ _ (W5_v51 m ρ c) (W5_v52 m ρ c) (W5_v53 m ρ c) (fun i =>
    (Cert.ReferenceIdeal.RefNorm.ref_ln _ _ _ _ _ _ i).trans
      (lnrelu_congr (fun _ => rfl) (rowCast _ i).symm (rowCast _ i).symm rfl))

/-! ## Region 2: the second dense product -/

theorem W7_v55 : W7 m ρ c (Proc.devRef .tc main_v55) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W7_arr m ρ c 2).trans ?_
  exact Cert.KernelIdeal.Region2.final (V6 m ρ) c _ _ _ _ _ _ _ (W6_v54 m ρ c) (W6_arg6 m ρ c)

/-! ## The second graph convolution's host operations; the classifier's bias row -/

theorem W8_v71 : W8 m ρ c (Proc.devRef .tc main_v71) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h55 := W7_v55 m ρ c
  have h3 := W7_v3 m ρ c
  have h6 := W7_v6 m ρ c
  have h34 := W7_v34 m ρ c
  have ha7 := W7_arg7 m ρ c
  dsimp only [W8, hostOps3]
  after_results_simp
  rw [h55, h3, h6, h34, ha7]
  rfl

theorem W8_v72 : W8 m ρ c (Proc.devRef .tc main_v72) = shapeCast S1x32 (m ((c : Thread nD τ).loc main_arg9)) shapeCasts_S32_S1x32 := by
  have ha9 := W7_arg9 m ρ c
  dsimp only [W8, hostOps3]
  after_results_simp
  rw [ha9]
  rfl

/-! ## Region 3: the classifier head -/

/-- The result array at the return: the reference's last stage of the argument arrays. -/
theorem W9_v73 : W9 m ρ c (Proc.devRef .tc main_v73) = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W9_arr m ρ c 3).trans ?_
  exact Cert.KernelIdeal.Region3.final (V8 m ρ) c _ _ _ _ _ _ _ _ _ _ (W8_v71 m ρ c) (W8_arg8 m ρ c) (W8_v72 m ρ c)

end Cert.KernelIdeal.Walk

end
-- ==== Proof.RefResult.lean ====
/-
  The reference's run reads its result as one composed term of the argument arrays; that term is the last of the
  reference's stage functions (each stage applied to the stages it reads), by unfolding the stages.
-/
import proofs.«109005_j30331059044677_1_alg».proof.Proof.RefRun
import proofs.«109005_j30331059044677_1_alg».proof.Proof.RefRead

set_option maxRecDepth 16384

noncomputable section

namespace Cert.ReferenceIdeal.RefResult

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- The composed term the run states for the result is the stage `val_main_v97` of the argument arrays. -/
theorem res_eq (m : (ℓ : Loc nD τ sig) → Buf (Elt F) ℓ) (c : Dev nD) :
    Cert.ReferenceIdeal.ValueP.res_main_v97 m c = val_main_v97 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.ValueP.res_main_v97; rfl

end Cert.ReferenceIdeal.RefResult

end
-- ==== Proof.lean ====
/-
  The certificate of a two-layer graph convolution network over 100000 nodes with a linear classifier head.

  Both programs compute, from the node features x [100000, 128] and the edge list [2, 1600000]: the edge lists
  with the self loops appended, the degrees and the weights dinv[row] · dinv[col]; the first graph convolution
  (x · W1, rows gathered at the source nodes, scaled by the weights, scatter-added at the target nodes, plus b1);
  LayerNorm over the 128 features with scale g1 and shift be1, clamped at zero; the second graph convolution with W2
  and b2; and the classifier (· Wc + bc).  The kernel computes the three dense products and the LayerNorm in four
  row-tiled regions (ten blocks of 10000 rows each) and everything else with the same host operations as the
  reference.  At the ideal values rounding to bf16 on the way into a product is the identity and a block of rows of a
  product, or of a row-wise LayerNorm, is that block of rows of the whole array's, so each region's output array is
  the reference's stage at that place, and the two results are one function of the argument arrays.  No law beyond
  the reading of a sum started at the literal zero as the plain sum is used, so the precondition is never opened.

  The three frames: the word-level and the idealized kernel by their generated frame certificates; the reference by
  its run with the result dropped.  The idealization rewrote no operation, so `preserves` is trivial.
-/
import proofs.«109005_j30331059044677_1_alg».proof.Defs
import proofs.«109005_j30331059044677_1_alg».proof.Proof.Gen.Kernel
import proofs.«109005_j30331059044677_1_alg».proof.Proof.Gen.Kernel.Frame
import proofs.«109005_j30331059044677_1_alg».proof.Proof.Gen.KernelIdeal
import proofs.«109005_j30331059044677_1_alg».proof.Proof.Gen.KernelIdeal.Frame
import proofs.«109005_j30331059044677_1_alg».proof.Proof.Gen.ReferenceIdeal
import proofs.«109005_j30331059044677_1_alg».proof.Proof.Gen.Pre_finite_inputs
import proofs.«109005_j30331059044677_1_alg».proof.Proof.KernelRun
import proofs.«109005_j30331059044677_1_alg».proof.Proof.Walk
import proofs.«109005_j30331059044677_1_alg».proof.Proof.RefRun
import proofs.«109005_j30331059044677_1_alg».proof.Proof.RefResult
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both runs end with the result array at the reference's last stage of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v97 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.KernelIdeal.Walk.W9_v73 m ρ c), (h c).2⟩)
      (Cert.KernelIdeal.Result.run_result m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefResult.res_eq m' c]
    obtain ⟨e0, e1, e2, e3, e4, e5, e6, e7, e8, e9⟩ := hagree c
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
